-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64x64 .f32) (main_arg7 : FVec F S64x64 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x64 .f32) (main_arg1 : IVec S800000 32) (main_arg2 : IVec S800000 32) (main_arg3 : FVec F S64x64 .f32) (main_arg4 : FVec F S64x64 .f32) (main_arg5 : FVec F S64 .f32) (main_arg6 : FVec F S64x64 .f32) (main_arg7 : FVec F S64x64 .f32) (main_arg8 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_v13 main_v16
-- ==== Kernel.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S1x64 : Shape := ⟨2, ![1, 64]⟩
abbrev S5000x64 : Shape := ⟨2, ![5000, 64]⟩
abbrev S5000x1 : Shape := ⟨2, ![5000, 1]⟩

abbrev nBuf : Space → Nat
  | .hbm => 52
  | .vmem => 22
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x64, .f32⟩
  | .hbm, ⟨31, _⟩ => ⟨S_, .f32⟩
  | .hbm, ⟨32, _⟩ => ⟨S50000x64, .f32⟩
  | .hbm, ⟨33, _⟩ => ⟨S800000x1, .i32⟩
  | .hbm, ⟨34, _⟩ => ⟨S50000x64, .f32⟩
  | .hbm, ⟨35, _⟩ => ⟨S1x64, .f32⟩
  | .hbm, ⟨36, _⟩ => ⟨S50000x64, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x64, .f32⟩
  | .hbm, ⟨46, _⟩ => ⟨S_, .f32⟩
  | .hbm, ⟨47, _⟩ => ⟨S50000x64, .f32⟩
  | .hbm, ⟨48, _⟩ => ⟨S800000x1, .i32⟩
  | .hbm, ⟨49, _⟩ => ⟨S50000x64, .f32⟩
  | .hbm, ⟨50, _⟩ => ⟨S1x64, .f32⟩
  | .hbm, ⟨51, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x1, .f32⟩
  | .local _ .vmem, ⟨16, _⟩ => ⟨S5000x1, .f32⟩
  | .local _ .vmem, ⟨17, _⟩ => ⟨S64x64, .f32⟩
  | .local _ .vmem, ⟨18, _⟩ => ⟨S64x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_c_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_7 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x64 : S_.BroadcastsInDim S50000x64 (![] : Fin 0 → Fin S50000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S50000x64.size a
  hwx0_6 : ∀ i : grid0.Coords, EltTy.bits .f32 = 32 ∨ (Rect.block (s := S50000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v20) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S1x64 : Shape := ⟨2, ![1, 64]⟩

abbrev nBuf : Space → Nat
  | .hbm => 74
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x64, .f32⟩
  | .hbm, ⟨18, _⟩ => ⟨S_, .f32⟩
  | .hbm, ⟨19, _⟩ => ⟨S50000x64, .f32⟩
  | .hbm, ⟨20, _⟩ => ⟨S800000x1, .i32⟩
  | .hbm, ⟨21, _⟩ => ⟨S50000x64, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x64, .f32⟩
  | .hbm, ⟨33, _⟩ => ⟨S50000x64, .f32⟩
  | .hbm, ⟨34, _⟩ => ⟨S50000x64, .f32⟩
  | .hbm, ⟨35, _⟩ => ⟨S50000x64, .f32⟩
  | .hbm, ⟨36, _⟩ => ⟨S50000x64, .f32⟩
  | .hbm, ⟨37, _⟩ => ⟨S1x64, .f32⟩
  | .hbm, ⟨38, _⟩ => ⟨S50000x64, .f32⟩
  | .hbm, ⟨39, _⟩ => ⟨S50000x64, .f32⟩
  | .hbm, ⟨40, _⟩ => ⟨S_, .f32⟩
  | .hbm, ⟨41, _⟩ => ⟨S50000x64, .f32⟩
  | .hbm, ⟨42, _⟩ => ⟨S50000x64, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x64, .f32⟩
  | .hbm, ⟨52, _⟩ => ⟨S_, .f32⟩
  | .hbm, ⟨53, _⟩ => ⟨S50000x64, .f32⟩
  | .hbm, ⟨54, _⟩ => ⟨S800000x1, .i32⟩
  | .hbm, ⟨55, _⟩ => ⟨S50000x64, .f32⟩
  | .hbm, ⟨56, _⟩ => ⟨S_, .f32⟩
  | .hbm, ⟨57, _⟩ => ⟨S800000, .f32⟩
  | .hbm, ⟨58, _⟩ => ⟨S_, .f32⟩
  | .hbm, ⟨59, _⟩ => ⟨S50000, .f32⟩
  | .hbm, ⟨60, _⟩ => ⟨S800000x1, .i32⟩
  | .hbm, ⟨61, _⟩ => ⟨S50000, .f32⟩
  | .hbm, ⟨62, _⟩ => ⟨S_, .f32⟩
  | .hbm, ⟨63, _⟩ => ⟨S50000, .f32⟩
  | .hbm, ⟨64, _⟩ => ⟨S50000, .f32⟩
  | .hbm, ⟨65, _⟩ => ⟨S50000x1, .f32⟩
  | .hbm, ⟨66, _⟩ => ⟨S50000x64, .f32⟩
  | .hbm, ⟨67, _⟩ => ⟨S50000x64, .f32⟩
  | .hbm, ⟨68, _⟩ => ⟨S50000x64, .f32⟩
  | .hbm, ⟨69, _⟩ => ⟨S50000x64, .f32⟩
  | .hbm, ⟨70, _⟩ => ⟨S50000x64, .f32⟩
  | .hbm, ⟨71, _⟩ => ⟨S1x64, .f32⟩
  | .hbm, ⟨72, _⟩ => ⟨S50000x64, .f32⟩
  | .hbm, ⟨73, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KernelRun.lean ====
/-
  The kernel program's run with its result array named.

  The program is four segments: host operations, the first kernel region, host operations, the second kernel
  region. Every weakly fair execution terminates without a fault; at the end every buffer that outlives the regions
  holds the contents the last segment boundary gives it. Read at the result buffer this names the program's result:
  the contents the second region's write-backs leave in its output array. The arguments end as launched.
-/
import proofs.«120543_j59854664237965_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run_result : θ_run defs (onTc (τ := τ) (main (F := F))) ⟨m, fun _ => 0, ρ⟩ (fun r => ∀ c : Dev nD,
      r.2.mem ((c.tc : Thread nD τ).loc main_v32) = W4 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v32 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Gen

end
-- ==== Proof.SageLayer.lean ====
/-
  One mean-aggregation graph-convolution layer on the extended reals, entry by entry.

  For node features X [M, 64], neighbour sums A [M, 64], a column s [M, 1] of per-node scales, weights
  Ws, Wn [64, 64] and a bias row b [1, 64], the layer's pre-activation at (p, q) is
      Σ_k X[p,k]·Ws[k,q]  +  Σ_k (A[p,k]·s[p,0])·Wn[k,q]  +  b[0,q].
  The first layer clamps it below at 0; the second returns it as it is.
-/
import Idealize.ShloMosaic.Lib.ValueIdx
import Idealize.ShloMosaic.PureOps.Ideal.Laws

noncomputable section

namespace Sage

open Idealize.ShloMosaic Idealize.ShloMosaic.ValueIdx

/-- The pre-activation at row p, column q. -/
def preAt {M : ℕ} (X A : (⟨2, ![M, 64]⟩ : Shape).Idx → EReal) (s : (⟨2, ![M, 1]⟩ : Shape).Idx → EReal)
    (Ws Wn : (⟨2, ![64, 64]⟩ : Shape).Idx → EReal) (b : (⟨2, ![1, 64]⟩ : Shape).Idx → EReal)
    (p : Fin M) (q : Fin 64) : EReal :=
  (∑ k : Fin 64, X (ix2 (n0 := M) (n1 := 64) p k) * Ws (ix2 (n0 := 64) (n1 := 64) k q))
    + (∑ k : Fin 64, (A (ix2 (n0 := M) (n1 := 64) p k) * s (ix2 (n0 := M) (n1 := 1) p (0 : Fin 1)))
        * Wn (ix2 (n0 := 64) (n1 := 64) k q))
    + b (ix2 (n0 := 1) (n1 := 64) (0 : Fin 1) q)

/-- The second layer: the pre-activation as an array. -/
def pre {M : ℕ} (X A : (⟨2, ![M, 64]⟩ : Shape).Idx → EReal) (s : (⟨2, ![M, 1]⟩ : Shape).Idx → EReal)
    (Ws Wn : (⟨2, ![64, 64]⟩ : Shape).Idx → EReal) (b : (⟨2, ![1, 64]⟩ : Shape).Idx → EReal) :
    (⟨2, ![M, 64]⟩ : Shape).Idx → EReal :=
  fun i => preAt X A s Ws Wn b (i 0) (i 1)

/-- The first layer: the pre-activation clamped below at 0. -/
def hidden {M : ℕ} (X A : (⟨2, ![M, 64]⟩ : Shape).Idx → EReal) (s : (⟨2, ![M, 1]⟩ : Shape).Idx → EReal)
    (Ws Wn : (⟨2, ![64, 64]⟩ : Shape).Idx → EReal) (b : (⟨2, ![1, 64]⟩ : Shape).Idx → EReal) :
    (⟨2, ![M, 64]⟩ : Shape).Idx → EReal :=
  fun i => max (preAt X A s Ws Wn b (i 0) (i 1)) 0

theorem pre_apply {M : ℕ} (X A : (⟨2, ![M, 64]⟩ : Shape).Idx → EReal) (s : (⟨2, ![M, 1]⟩ : Shape).Idx → EReal)
    (Ws Wn : (⟨2, ![64, 64]⟩ : Shape).Idx → EReal) (b : (⟨2, ![1, 64]⟩ : Shape).Idx → EReal) (p : Fin M) (q : Fin 64) :
    pre X A s Ws Wn b (ix2 (n0 := M) (n1 := 64) p q) = preAt X A s Ws Wn b p q := rfl

theorem hidden_apply {M : ℕ} (X A : (⟨2, ![M, 64]⟩ : Shape).Idx → EReal) (s : (⟨2, ![M, 1]⟩ : Shape).Idx → EReal)
    (Ws Wn : (⟨2, ![64, 64]⟩ : Shape).Idx → EReal) (b : (⟨2, ![1, 64]⟩ : Shape).Idx → EReal) (p : Fin M) (q : Fin 64) :
    hidden X A s Ws Wn b (ix2 (n0 := M) (n1 := 64) p q) = max (preAt X A s Ws Wn b p q) 0 := rfl

end Sage

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.LibKeepdims.lean ====
/-
  A sum along one axis of a matrix that keeps the reduced axis as a unit axis, read at an index.

  A row sum with the axis kept is printed as a reduction of the [A, B] matrix over axis 1 into a vector of length
  A, followed by a cast of that vector into the [A, 1] column. At exact arithmetic the reduction at row r is the
  sum over k of the entry (r, k); the cast reads the vector at r, because (r, 0) and r have the same row-major
  position. The same for a column sum over axis 0.
-/
import Idealize.ShloMosaic.Lib.ValueIdx
import Idealize.ShloMosaic.Lib.Pipeline.Value
import Idealize.ShloMosaic.PureOps.Ideal.Laws

noncomputable section

namespace LibKeepdims

open Idealize.ShloMosaic Idealize.ShloMosaic.ValueIdx

variable {φ : FTy}

/-- The exact sum over axis 1 of an [A, B] matrix, at row r: the sum over k of the entry (r, k). -/
theorem sum_axis1_apply {A B : ℕ} (src : FVec Ideal ⟨2, ![A, B]⟩ φ) (acc : BitVec φ.bits)
    (h : Shape.Reduces ⟨2, ![A, B]⟩ [1] ⟨1, ![A]⟩) (hφ : FKind.Formats φ) (hacc : acc = FKind.add.neutral φ hφ) (r : Fin A) :
    multiReduction .add [1] ⟨1, ![A]⟩ src acc h hφ hacc (ix1 r) = ∑ k : Fin B, src (ix2 r k) := by
  refine (Ideal.multiReduction_add_single src acc h hφ hacc (ix1 r)).trans ?_
  show ∑ k : Fin B, src (h.lift (ix1 r) k) = _
  refine Finset.sum_congr rfl fun k _ => congrArg src ?_
  funext d
  match d with
  | ⟨0, _⟩ => exact Fin.ext rfl
  | ⟨1, _⟩ => exact Fin.ext rfl

/-- The exact sum over axis 0 of an [A, B] matrix, at column c: the sum over k of the entry (k, c). -/
theorem sum_axis0_apply {A B : ℕ} (src : FVec Ideal ⟨2, ![A, B]⟩ φ) (acc : BitVec φ.bits)
    (h : Shape.Reduces ⟨2, ![A, B]⟩ [0] ⟨1, ![B]⟩) (hφ : FKind.Formats φ) (hacc : acc = FKind.add.neutral φ hφ) (c : Fin B) :
    multiReduction .add [0] ⟨1, ![B]⟩ src acc h hφ hacc (ix1 c) = ∑ k : Fin A, src (ix2 k c) := by
  refine (Ideal.multiReduction_add_single src acc h hφ hacc (ix1 c)).trans ?_
  show ∑ k : Fin A, src (h.lift (ix1 c) k) = _
  refine Finset.sum_congr rfl fun k _ => congrArg src ?_
  funext d
  match d with
  | ⟨0, _⟩ => exact Fin.ext rfl
  | ⟨1, _⟩ => exact Fin.ext rfl

/-- A vector of length a cast into the [a, 1] column, read at (r, 0): the vector at r. -/
theorem shapeCast_col_apply {α : Type} {a : ℕ} (x : (⟨1, ![a]⟩ : Shape).Idx → α)
    (h : (⟨1, ![a]⟩ : Shape).ShapeCasts ⟨2, ![a, 1]⟩) (r : Fin a) (z : Fin 1) :
    shapeCast ⟨2, ![a, 1]⟩ x h (ix2 r z) = x (ix1 r) := by
  refine shapeCast_apply x h _ _ ?_
  rw [Shape.rowMajor_val_one, Shape.rowMajor_val_two]
  show r.val = r.val * 1 + z.val
  omega

end LibKeepdims

end
-- ==== Proof.LibColumnOps.lean ====
/-
  A column broadcast along the rows' entries, and reductions along a row kept as a column, read at an index,
  at exact arithmetic.

  A matrix [a, 1] broadcast to [a, b] reads, at (p, q), the column's entry p. The maximum over axis 1 of an [A, B]
  matrix at row r is the fold of max over the row's entries from the initial word's value. A sum over axis 1 that is
  kept as an [A, 1] column and broadcast back to C columns reads, at (p, q), the sum of row p — the shape a
  normalisation (a softmax's denominator, a row norm) prints as.
-/
import Idealize.ShloMosaic.Lib.ValueIdx
import Idealize.ShloMosaic.Lib.Pipeline.Value
import Idealize.ShloMosaic.PureOps.Ideal.Laws
import proofs.«120543_j59854664237965_2_alg».proof.Proof.LibKeepdims

noncomputable section

namespace LibColumnOps

open Idealize.ShloMosaic Idealize.ShloMosaic.ValueIdx

/-- An [a, 1] column broadcast to [a, b] reads, at (p, q), the column at p. -/
theorem broadcastTo_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over axis 1 of an [A, B] matrix, at row r: the fold of max over the row, from the initial word's value. -/
theorem max_axis1_apply {A B : ℕ} {φ : FTy} (src : FVec Ideal ⟨2, ![A, B]⟩ φ) (acc : BitVec φ.bits)
    (h : Shape.Reduces ⟨2, ![A, B]⟩ [1] ⟨1, ![A]⟩) (hφ : FKind.Formats φ) (hacc : acc = FKind.maximumf.neutral φ hφ) (r : Fin A) :
    multiReduction .maximumf [1] ⟨1, ![A]⟩ src acc h hφ hacc (ix1 r)
      = (Finset.univ : Finset (Fin B)).fold max (Ideal.ofBits φ acc) (fun k => src (ix2 r k)) := by
  refine (Ideal.multiReduction_maximumf_single src acc h hφ hacc (ix1 r)).trans ?_
  refine congrArg (fun g => Finset.fold max (Ideal.ofBits φ acc) g (Finset.univ : Finset (Fin B))) (funext fun k => congrArg src ?_)
  funext d
  match d with
  | ⟨0, _⟩ => exact Fin.ext rfl
  | ⟨1, _⟩ => exact Fin.ext rfl

/-- The sum over the columns, kept as a unit column and broadcast to C columns, at (p, q): the sum of row p. -/
theorem rowsum_bcast_apply {A B C : ℕ} (y : FVec Ideal ⟨2, ![A, B]⟩ .f32)
    (hred : Shape.Reduces ⟨2, ![A, B]⟩ [1] ⟨1, ![A]⟩) (hcast : (⟨1, ![A]⟩ : Shape).ShapeCasts ⟨2, ![A, 1]⟩)
    (hb : (⟨2, ![A, 1]⟩ : Shape).Broadcasts ⟨2, ![A, C]⟩) (hφ : FKind.Formats .f32)
    (hacc : (0x00000000#32 : BitVec 32) = FKind.add.neutral .f32 hφ) (p : Fin A) (q : Fin C) :
    broadcastTo ⟨2, ![A, C]⟩ (shapeCast ⟨2, ![A, 1]⟩ (multiReduction .add [1] ⟨1, ![A]⟩ y 0x00000000#32 hred hφ hacc) hcast) hb (ix2 p q)
      = ∑ l, y (ix2 p l) := by
  rw [broadcastTo_col_apply, LibKeepdims.shapeCast_col_apply, LibKeepdims.sum_axis1_apply]

end LibColumnOps

end
-- ==== Proof.LibRowOps.lean ====
/-
  A vector used as a row, read at an index.

  A vector of length b cast into the [1, b] row reads, at (z, q), the vector at q: (z, q) with z = 0 and q have the
  same row-major position. A [1, b] row broadcast to [a, b] reads, at (p, q), the row at q.
-/
import Idealize.ShloMosaic.Lib.ValueIdx
import Idealize.ShloMosaic.Lib.Pipeline.Value

noncomputable section

namespace LibRowOps

open Idealize.ShloMosaic Idealize.ShloMosaic.ValueIdx

/-- A vector of length b cast into the [1, b] row, read at (z, q): the vector at q. -/
theorem shapeCast_row_apply {α : Type} {b : ℕ} (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h _ _ ?_
  rw [Shape.rowMajor_val_one, Shape.rowMajor_val_two]
  show q.val = z.val * b + q.val
  have := z.isLt
  have hz : z.val = 0 := by omega
  rw [hz, Nat.zero_mul, Nat.zero_add]

/-- A [1, b] row broadcast to [a, b] reads, at (p, q), the row at q. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

end LibRowOps

end
-- ==== Proof.KernelBody.lean ====
/-
  The two kernel bodies, read at an entry of their block at exact arithmetic.

  Each body loads a block of node features x0 and of neighbour sums x1 (5000 rows of 64), the matching column x2 of
  per-node scales, the two 64×64 weight matrices x3, x4 and the bias row x5, and stores
      x0 · x3 + (x1 ⊙ x2) · x4 + x5        (⊙: every row of x1 scaled by its entry of the column),
  the first kernel clamped below at 0. Changes of float format are the identity at exact arithmetic, a cast to the
  same shape is the identity, and a matrix product into a zero accumulator is the sum over the contracted axis, so
  at (p, q) the stored value is the layer's pre-activation of the loaded blocks (clamped, for the first kernel).
-/
import proofs.«120543_j59854664237965_2_alg».proof.Proof.Gen.KernelIdeal.Skeleton
import proofs.«120543_j59854664237965_2_alg».proof.Proof.SageLayer
import proofs.«120543_j59854664237965_2_alg».proof.Proof.LibMatmulIdx
import proofs.«120543_j59854664237965_2_alg».proof.Proof.LibColumnOps
import proofs.«120543_j59854664237965_2_alg».proof.Proof.LibRowOps
import Idealize.ShloMosaic.Lib.Pipeline.Value

noncomputable section

namespace Cert.KernelIdeal.Body

open Idealize.ShloMosaic Idealize.ShloMosaic.ValueIdx Cert.KernelIdeal Cert.KernelIdeal.Gen

/-! The contraction record of the bodies' products: the left index is (row of the result, contracted position), the
    right index (contracted position, column of the result). -/

local notation "D" => dot_S5000x64_S64x64_S5000x64_1_0_0_1_n_n

theorem lhs0 (i : S5000x64.Idx) (q : (dot_S5000x64_S64x64_S5000x64_1_0_0_1_n_n).contr.Idx) :
    ((dot_S5000x64_S64x64_S5000x64_1_0_0_1_n_n).lhsIdx i q 0).val = (i 0).val := by
  unfold DotDims.lhsIdx
  rw [dif_neg (show ¬(0 : Fin S5000x64.rank) ∈ (dot_S5000x64_S64x64_S5000x64_1_0_0_1_n_n).lhsBatch by decide),
    dif_pos (show (0 : Fin S5000x64.rank) ∈ (dot_S5000x64_S64x64_S5000x64_1_0_0_1_n_n).lhsNonContracting by decide)]
  rfl
theorem lhs1 (i : S5000x64.Idx) (q : (dot_S5000x64_S64x64_S5000x64_1_0_0_1_n_n).contr.Idx) :
    ((dot_S5000x64_S64x64_S5000x64_1_0_0_1_n_n).lhsIdx i q 1).val = (q ⟨0, by decide⟩).val :=
  (dot_S5000x64_S64x64_S5000x64_1_0_0_1_n_n).lhsIdx_val_of_single rfl i q
theorem rhs0 (i : S5000x64.Idx) (q : (dot_S5000x64_S64x64_S5000x64_1_0_0_1_n_n).contr.Idx) :
    ((dot_S5000x64_S64x64_S5000x64_1_0_0_1_n_n).rhsIdx i q 0).val = (q ⟨0, by decide⟩).val :=
  (dot_S5000x64_S64x64_S5000x64_1_0_0_1_n_n).rhsIdx_val_of_single rfl i q
theorem rhs1 (i : S5000x64.Idx) (q : (dot_S5000x64_S64x64_S5000x64_1_0_0_1_n_n).contr.Idx) :
    ((dot_S5000x64_S64x64_S5000x64_1_0_0_1_n_n).rhsIdx i q 1).val = (i 1).val := by
  unfold DotDims.rhsIdx
  rw [dif_neg (show ¬(1 : Fin S64x64.rank) ∈ (dot_S5000x64_S64x64_S5000x64_1_0_0_1_n_n).rhsBatch by decide),
    dif_pos (show (1 : Fin S64x64.rank) ∈ (dot_S5000x64_S64x64_S5000x64_1_0_0_1_n_n).rhsNonContracting by decide)]
  rfl

/-- A body's product of an [5000, 64] block with a [64, 64] matrix into the zero splat, at (p, q). -/
theorem prod_apply {φ₁ φ₂ : FTy} (l : FVec Ideal S5000x64 φ₁) (r : FVec Ideal S64x64 φ₂) (p : Fin 5000) (q : Fin 64) :
    FloatOps.matmul (F := Ideal) dot_S5000x64_S64x64_S5000x64_1_0_0_1_n_n none l r (constant S5000x64 .f32 0x00000000#32)
        (ix2 p q)
      = ∑ k : Fin 64, l (ix2 p k) * r (ix2 k q) :=
  LibMatmulIdx.matmul2_apply (M := 5000) (K := 64) (N := 64) dot_S5000x64_S64x64_S5000x64_1_0_0_1_n_n rfl rfl
    lhs0 lhs1 rhs0 rhs1 none l r (ix2 p q)

/-- The first kernel's stored value at (p, q): the clamped pre-activation of the loaded blocks. -/
theorem pay0_apply (x0 x1 : Vec Ideal S5000x64 .f32) (x2 : Vec Ideal S5000x1 .f32) (x3 x4 : Vec Ideal S64x64 .f32)
    (x5 : Vec Ideal S1x64 .f32) (p : Fin 5000) (q : Fin 64) :
    k0_pay1 (F := Ideal) x0 x1 x2 x3 x4 x5 (ix2 p q) = max (Sage.preAt (M := 5000) x0 x1 x2 x3 x4 x5 p q) 0 := by
  unfold k0_pay1
  simp only [maximumf_apply, addf_apply, broadcast_apply]
  unfold Sage.preAt
  refine congrArg₂ max (congrArg₂ (· + ·) (congrArg₂ (· + ·) ?_ ?_) ?_) ?_
  · exact prod_apply _ _ p q
  · refine (prod_apply _ _ p q).trans (Finset.sum_congr rfl fun k _ => ?_)
    simp only [truncf_apply, mulf_apply]
    rw [shapeCast_self, LibColumnOps.broadcastTo_col_apply, shapeCast_self]
  · rw [LibRowOps.broadcastTo_row_apply, shapeCast_self]
  · exact Ideal.ofBits_zero_f32

/-- The second kernel's stored value at (p, q): the pre-activation of the loaded blocks. -/
theorem pay1_apply (x0 x1 : Vec Ideal S5000x64 .f32) (x2 : Vec Ideal S5000x1 .f32) (x3 x4 : Vec Ideal S64x64 .f32)
    (x5 : Vec Ideal S1x64 .f32) (p : Fin 5000) (q : Fin 64) :
    k1_pay1 (F := Ideal) x0 x1 x2 x3 x4 x5 (ix2 p q) = Sage.preAt (M := 5000) x0 x1 x2 x3 x4 x5 p q := by
  unfold k1_pay1
  simp only [addf_apply]
  unfold Sage.preAt
  refine congrArg₂ (· + ·) (congrArg₂ (· + ·) ?_ ?_) ?_
  · refine (prod_apply _ _ p q).trans (Finset.sum_congr rfl fun k _ => ?_)
    simp only [truncf_apply]
    rw [shapeCast_self]
  · refine (prod_apply _ _ p q).trans (Finset.sum_congr rfl fun k _ => ?_)
    simp only [truncf_apply, mulf_apply]
    rw [shapeCast_self, LibColumnOps.broadcastTo_col_apply, shapeCast_self]
  · rw [LibRowOps.broadcastTo_row_apply, shapeCast_self]

end Cert.KernelIdeal.Body

end
-- ==== Proof.KernelBlocks.lean ====
/-
  From blocks to arrays: each of the two kernel regions leaves, in its output array, the layer applied to the
  arrays the region finds when it is entered.

  The grid has ten points; point t stages rows 5000·t … 5000·t + 4999 of the node features, of the neighbour sums
  and of the column of scales, the whole weight matrices and bias row, and writes the same rows of the output. The
  body's stored value at an entry is the layer's value from the loaded blocks, and a block's entry (p, k) is the
  array's entry (5000·t + p, k), so what point t writes back is block t of the layer of the whole arrays; the ten
  blocks tile the 50000 rows, so the array ends holding the layer everywhere. Stated for any contents at entry.
-/
import proofs.«120543_j59854664237965_2_alg».proof.Proof.Gen.KernelIdeal.Frame
import proofs.«120543_j59854664237965_2_alg».proof.Proof.KernelBody
import Idealize.ShloMosaic.Lib.Pipeline.Value

set_option maxRecDepth 16384

noncomputable section

namespace Cert.KernelIdeal.Blocks

open Idealize.ShloMosaic Idealize.ShloMosaic.ValueIdx Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Region 0 -/

/-- The printed index maps over the grid: the three row-tiled inputs and the output sit at block row t, the weights
    and the bias at block 0. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Block t of the node features: rows 5000·t … 5000·t + 4999. -/
theorem blk0_0 (c : Dev nD) (t : Fin cfg0.N) (p : Fin 5000) (k : Fin 64) (P : Fin 50000) (hP : P.val = t.val * 5000 + p.val) :
    iblk0 V c 0 t (ix2 p k) = V c main_arg0 (ix2 P k) := by
  show V c main_arg0 (((cfg0.win 0).blk t).view.emb (ix2 p k)) = V c main_arg0 (ix2 P k)
  refine congrArg (V c main_arg0) (funext fun a => Fin.ext ?_)
  obtain ⟨e0, e1, -⟩ := idx_facts0 t
  match a with
  | ⟨0, _⟩ => show win0_0.index t (0 : Fin 2) * 5000 + 1 * p.val = P.val; omega
  | ⟨1, _⟩ => show win0_0.index t (1 : Fin 2) * 64 + 1 * k.val = k.val; omega

/-- Block t of the neighbour sums: the same rows. -/
theorem blk0_1 (c : Dev nD) (t : Fin cfg0.N) (p : Fin 5000) (k : Fin 64) (P : Fin 50000) (hP : P.val = t.val * 5000 + p.val) :
    iblk0 V c 1 t (ix2 p k) = V c main_v18 (ix2 P k) := by
  show V c main_v18 (((cfg0.win 1).blk t).view.emb (ix2 p k)) = V c main_v18 (ix2 P k)
  refine congrArg (V c main_v18) (funext fun a => Fin.ext ?_)
  obtain ⟨-, -, e0, e1, -⟩ := idx_facts0 t
  match a with
  | ⟨0, _⟩ => show win0_1.index t (0 : Fin 2) * 5000 + 1 * p.val = P.val; omega
  | ⟨1, _⟩ => show win0_1.index t (1 : Fin 2) * 64 + 1 * k.val = k.val; omega

/-- Block t of the column of scales: the same rows. -/
theorem blk0_2 (c : Dev nD) (t : Fin cfg0.N) (p : Fin 5000) (z : Fin 1) (P : Fin 50000) (hP : P.val = t.val * 5000 + p.val) :
    iblk0 V c 2 t (ix2 p z) = V c main_v8 (ix2 P z) := by
  show V c main_v8 (((cfg0.win 2).blk t).view.emb (ix2 p z)) = V c main_v8 (ix2 P z)
  refine congrArg (V c main_v8) (funext fun a => Fin.ext ?_)
  obtain ⟨-, -, -, -, e0, e1, -⟩ := idx_facts0 t
  match a with
  | ⟨0, _⟩ => show win0_2.index t (0 : Fin 2) * 5000 + 1 * p.val = P.val; omega
  | ⟨1, _⟩ => show win0_2.index t (1 : Fin 2) * 1 + 1 * z.val = z.val; omega

/-- The weights and the bias are read whole at every point. -/
theorem blk0_3 (c : Dev nD) (t : Fin cfg0.N) (k q : Fin 64) :
    iblk0 V c 3 t (ix2 k q) = V c main_arg3 (ix2 k q) := by
  show V c main_arg3 (((cfg0.win 3).blk t).view.emb (ix2 k q)) = V c main_arg3 (ix2 k q)
  refine congrArg (V c main_arg3) (funext fun a => Fin.ext ?_)
  obtain ⟨-, -, -, -, -, -, e0, e1, -⟩ := idx_facts0 t
  match a with
  | ⟨0, _⟩ => show win0_3.index t (0 : Fin 2) * 64 + 1 * k.val = k.val; omega
  | ⟨1, _⟩ => show win0_3.index t (1 : Fin 2) * 64 + 1 * q.val = q.val; omega

theorem blk0_4 (c : Dev nD) (t : Fin cfg0.N) (k q : Fin 64) :
    iblk0 V c 4 t (ix2 k q) = V c main_arg4 (ix2 k q) := by
  show V c main_arg4 (((cfg0.win 4).blk t).view.emb (ix2 k q)) = V c main_arg4 (ix2 k q)
  refine congrArg (V c main_arg4) (funext fun a => Fin.ext ?_)
  obtain ⟨-, -, -, -, -, -, -, -, e0, e1, -⟩ := idx_facts0 t
  match a with
  | ⟨0, _⟩ => show win0_4.index t (0 : Fin 2) * 64 + 1 * k.val = k.val; omega
  | ⟨1, _⟩ => show win0_4.index t (1 : Fin 2) * 64 + 1 * q.val = q.val; omega

theorem blk0_5 (c : Dev nD) (t : Fin cfg0.N) (z : Fin 1) (q : Fin 64) :
    iblk0 V c 5 t (ix2 z q) = V c main_v19 (ix2 z q) := by
  show V c main_v19 (((cfg0.win 5).blk t).view.emb (ix2 z q)) = V c main_v19 (ix2 z q)
  refine congrArg (V c main_v19) (funext fun a => Fin.ext ?_)
  obtain ⟨-, -, -, -, -, -, -, -, -, -, e0, e1, -⟩ := idx_facts0 t
  match a with
  | ⟨0, _⟩ => show win0_5.index t (0 : Fin 2) * 1 + 1 * z.val = z.val; omega
  | ⟨1, _⟩ => show win0_5.index t (1 : Fin 2) * 64 + 1 * q.val = q.val; omega

/-- What point t writes back is block t of the layer applied to the whole arrays as the region finds them: an
    entry of the output block depends on its own row of the features, the neighbour sums and the scales, and on the
    whole weights and bias. -/
theorem flushed0_eq (c : Dev nD) (t : Fin cfg0.N) :
    (dat0 (F := Ideal) V c).flushed 6 t = ((cfg0.win 6).blk t).view.read (Elt Ideal)
      (Sage.hidden (M := 50000) (V c main_arg0) (V c main_v18) (V c main_v8) (V c main_arg3) (V c main_arg4) (V c main_v19)) := by
  show (cfg0.win 6).cut (grid0.coords t) ((dat0 (F := Ideal) V c).after 6 t) = _
  rw [after0_6]
  unfold out0_6
  rw [View.canon_unit_zero hz]
  simp only [View.ld_unit_zero (S := S5000x64) hz, View.ld_unit_zero (S := S5000x1) hz, View.ld_unit_zero (S := S64x64) hz,
    View.ld_unit_zero (S := S1x64) hz]
  funext j
  obtain ⟨p, q, rfl⟩ : ∃ (p : Fin 5000) (q : Fin 64), j = ix2 p q := ⟨j 0, j 1, eq_ix2 j⟩
  have hN : t.val < 10 := by have h := t.isLt; have e : cfg0.N = 10 := N_0; omega
  have hP : t.val * 5000 + p.val < 50000 := by have := p.isLt; omega
  obtain ⟨-, -, -, -, -, -, -, -, -, -, -, -, e0, e1⟩ := idx_facts0 t
  have hemb : ((cfg0.win 6).blk t).view.emb (ix2 p q) = ix2 (⟨t.val * 5000 + p.val, hP⟩ : Fin 50000) q :=
    funext fun a => Fin.ext (by
      match a with
      | ⟨0, _⟩ => show win0_6.index t (0 : Fin 2) * 5000 + 1 * p.val = t.val * 5000 + p.val; omega
      | ⟨1, _⟩ => show win0_6.index t (1 : Fin 2) * 64 + 1 * q.val = q.val; omega)
  show k0_pay1 (F := Ideal) (iblk0 V c 0 t) (iblk0 V c 1 t) (iblk0 V c 2 t) (iblk0 V c 3 t) (iblk0 V c 4 t) (iblk0 V c 5 t) (ix2 p q)
      = Sage.hidden (M := 50000) (V c main_arg0) (V c main_v18) (V c main_v8) (V c main_arg3) (V c main_arg4) (V c main_v19)
          (((cfg0.win 6).blk t).view.emb (ix2 p q))
  rw [hemb, Sage.hidden_apply]
  refine (Body.pay0_apply _ _ _ _ _ _ p q).trans ?_
  unfold Sage.preAt
  refine congrArg₂ max (congrArg₂ (· + ·) (congrArg₂ (· + ·) (Finset.sum_congr rfl fun k _ => ?_)
    (Finset.sum_congr rfl fun k _ => ?_)) ?_) rfl
  · rw [blk0_0 V c t p k ⟨t.val * 5000 + p.val, hP⟩ rfl, blk0_3 V c t k q]
  · rw [blk0_1 V c t p k ⟨t.val * 5000 + p.val, hP⟩ rfl, blk0_2 V c t p 0 ⟨t.val * 5000 + p.val, hP⟩ rfl, blk0_4 V c t k q]
  · rw [blk0_5 V c t 0 q]

/-- An index of the array is in point t's block iff each coordinate is in the block's range on its axis. -/
theorem mem_blk0 (t : Fin cfg0.N) (i : S50000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v20).slice (win0_6.rect t)).set ↔ _
  rw [View.set_slice_whole, Rect.mem_set_unit]
  exact Iff.rfl

/-- The ten row blocks tile the array: row r lies in the block of point r / 5000. -/
theorem cover0 (i : S50000x64.Idx) :
    ∃ t : Fin cfg0.N, (cfg0.win 6).flush t = true ∧ i ∈ ((cfg0.win 6).blk t).view.set := by
  have hi0 : (i 0).val < 50000 := (i 0).isLt
  have hi1 : (i 1).val < 64 := (i 1).isLt
  have hN : cfg0.N = 10 := N_0
  let t : Fin cfg0.N := ⟨(i 0).val / 5000, by rw [hN]; omega⟩
  have ht : t.val = (i 0).val / 5000 := rfl
  obtain ⟨-, -, -, -, -, -, -, -, -, -, -, -, e0, e1⟩ := idx_facts0 t
  refine ⟨t, flush0_6 t, ?_⟩
  rw [mem_blk0]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 64 ≤ (i 1).val ∧ (i 1).val < win0_6.index t (1 : Fin 2) * 64 + 64; omega

/-- The output array after region 0: the layer of the arrays as the region finds them. -/
theorem final0 (c : Dev nD) :
    (dat0 (F := Ideal) V c).arrAt 6 cfg0.N
      = Sage.hidden (M := 50000) (V c main_arg0) (V c main_v18) (V c main_v8) (V c main_arg3) (V c main_arg4) (V c main_v19) :=
  (dat0 (F := Ideal) V c).arrAt_eq_of_cover 6 _ (fun t _ => flushed0_eq V c t) (cover0)

/-! ## Region 1 -/

/-- The printed index maps over the grid: the three row-tiled inputs and the output sit at block row t, the weights
    and the bias at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Block t of the node features: rows 5000·t … 5000·t + 4999. -/
theorem blk1_0 (c : Dev nD) (t : Fin cfg1.N) (p : Fin 5000) (k : Fin 64) (P : Fin 50000) (hP : P.val = t.val * 5000 + p.val) :
    iblk1 V c 0 t (ix2 p k) = V c main_v20 (ix2 P k) := by
  show V c main_v20 (((cfg1.win 0).blk t).view.emb (ix2 p k)) = V c main_v20 (ix2 P k)
  refine congrArg (V c main_v20) (funext fun a => Fin.ext ?_)
  obtain ⟨e0, e1, -⟩ := idx_facts1 t
  match a with
  | ⟨0, _⟩ => show win1_0.index t (0 : Fin 2) * 5000 + 1 * p.val = P.val; omega
  | ⟨1, _⟩ => show win1_0.index t (1 : Fin 2) * 64 + 1 * k.val = k.val; omega

/-- Block t of the neighbour sums: the same rows. -/
theorem blk1_1 (c : Dev nD) (t : Fin cfg1.N) (p : Fin 5000) (k : Fin 64) (P : Fin 50000) (hP : P.val = t.val * 5000 + p.val) :
    iblk1 V c 1 t (ix2 p k) = V c main_v30 (ix2 P k) := by
  show V c main_v30 (((cfg1.win 1).blk t).view.emb (ix2 p k)) = V c main_v30 (ix2 P k)
  refine congrArg (V c main_v30) (funext fun a => Fin.ext ?_)
  obtain ⟨-, -, e0, e1, -⟩ := idx_facts1 t
  match a with
  | ⟨0, _⟩ => show win1_1.index t (0 : Fin 2) * 5000 + 1 * p.val = P.val; omega
  | ⟨1, _⟩ => show win1_1.index t (1 : Fin 2) * 64 + 1 * k.val = k.val; omega

/-- Block t of the column of scales: the same rows. -/
theorem blk1_2 (c : Dev nD) (t : Fin cfg1.N) (p : Fin 5000) (z : Fin 1) (P : Fin 50000) (hP : P.val = t.val * 5000 + p.val) :
    iblk1 V c 2 t (ix2 p z) = V c main_v8 (ix2 P z) := by
  show V c main_v8 (((cfg1.win 2).blk t).view.emb (ix2 p z)) = V c main_v8 (ix2 P z)
  refine congrArg (V c main_v8) (funext fun a => Fin.ext ?_)
  obtain ⟨-, -, -, -, e0, e1, -⟩ := idx_facts1 t
  match a with
  | ⟨0, _⟩ => show win1_2.index t (0 : Fin 2) * 5000 + 1 * p.val = P.val; omega
  | ⟨1, _⟩ => show win1_2.index t (1 : Fin 2) * 1 + 1 * z.val = z.val; omega

/-- The weights and the bias are read whole at every point. -/
theorem blk1_3 (c : Dev nD) (t : Fin cfg1.N) (k q : Fin 64) :
    iblk1 V c 3 t (ix2 k q) = V c main_arg6 (ix2 k q) := by
  show V c main_arg6 (((cfg1.win 3).blk t).view.emb (ix2 k q)) = V c main_arg6 (ix2 k q)
  refine congrArg (V c main_arg6) (funext fun a => Fin.ext ?_)
  obtain ⟨-, -, -, -, -, -, e0, e1, -⟩ := idx_facts1 t
  match a with
  | ⟨0, _⟩ => show win1_3.index t (0 : Fin 2) * 64 + 1 * k.val = k.val; omega
  | ⟨1, _⟩ => show win1_3.index t (1 : Fin 2) * 64 + 1 * q.val = q.val; omega

theorem blk1_4 (c : Dev nD) (t : Fin cfg1.N) (k q : Fin 64) :
    iblk1 V c 4 t (ix2 k q) = V c main_arg7 (ix2 k q) := by
  show V c main_arg7 (((cfg1.win 4).blk t).view.emb (ix2 k q)) = V c main_arg7 (ix2 k q)
  refine congrArg (V c main_arg7) (funext fun a => Fin.ext ?_)
  obtain ⟨-, -, -, -, -, -, -, -, e0, e1, -⟩ := idx_facts1 t
  match a with
  | ⟨0, _⟩ => show win1_4.index t (0 : Fin 2) * 64 + 1 * k.val = k.val; omega
  | ⟨1, _⟩ => show win1_4.index t (1 : Fin 2) * 64 + 1 * q.val = q.val; omega

theorem blk1_5 (c : Dev nD) (t : Fin cfg1.N) (z : Fin 1) (q : Fin 64) :
    iblk1 V c 5 t (ix2 z q) = V c main_v31 (ix2 z q) := by
  show V c main_v31 (((cfg1.win 5).blk t).view.emb (ix2 z q)) = V c main_v31 (ix2 z q)
  refine congrArg (V c main_v31) (funext fun a => Fin.ext ?_)
  obtain ⟨-, -, -, -, -, -, -, -, -, -, e0, e1, -⟩ := idx_facts1 t
  match a with
  | ⟨0, _⟩ => show win1_5.index t (0 : Fin 2) * 1 + 1 * z.val = z.val; omega
  | ⟨1, _⟩ => show win1_5.index t (1 : Fin 2) * 64 + 1 * q.val = q.val; omega

/-- What point t writes back is block t of the layer applied to the whole arrays as the region finds them: an
    entry of the output block depends on its own row of the features, the neighbour sums and the scales, and on the
    whole weights and bias. -/
theorem flushed1_eq (c : Dev nD) (t : Fin cfg1.N) :
    (dat1 (F := Ideal) V c).flushed 6 t = ((cfg1.win 6).blk t).view.read (Elt Ideal)
      (Sage.pre (M := 50000) (V c main_v20) (V c main_v30) (V c main_v8) (V c main_arg6) (V c main_arg7) (V c main_v31)) := by
  show (cfg1.win 6).cut (grid1.coords t) ((dat1 (F := Ideal) V c).after 6 t) = _
  rw [after1_6]
  unfold out1_6
  rw [View.canon_unit_zero hz]
  simp only [View.ld_unit_zero (S := S5000x64) hz, View.ld_unit_zero (S := S5000x1) hz, View.ld_unit_zero (S := S64x64) hz,
    View.ld_unit_zero (S := S1x64) hz]
  funext j
  obtain ⟨p, q, rfl⟩ : ∃ (p : Fin 5000) (q : Fin 64), j = ix2 p q := ⟨j 0, j 1, eq_ix2 j⟩
  have hN : t.val < 10 := by have h := t.isLt; have e : cfg1.N = 10 := N_1; omega
  have hP : t.val * 5000 + p.val < 50000 := by have := p.isLt; omega
  obtain ⟨-, -, -, -, -, -, -, -, -, -, -, -, e0, e1⟩ := idx_facts1 t
  have hemb : ((cfg1.win 6).blk t).view.emb (ix2 p q) = ix2 (⟨t.val * 5000 + p.val, hP⟩ : Fin 50000) q :=
    funext fun a => Fin.ext (by
      match a with
      | ⟨0, _⟩ => show win1_6.index t (0 : Fin 2) * 5000 + 1 * p.val = t.val * 5000 + p.val; omega
      | ⟨1, _⟩ => show win1_6.index t (1 : Fin 2) * 64 + 1 * q.val = q.val; omega)
  show k1_pay1 (F := Ideal) (iblk1 V c 0 t) (iblk1 V c 1 t) (iblk1 V c 2 t) (iblk1 V c 3 t) (iblk1 V c 4 t) (iblk1 V c 5 t) (ix2 p q)
      = Sage.pre (M := 50000) (V c main_v20) (V c main_v30) (V c main_v8) (V c main_arg6) (V c main_arg7) (V c main_v31)
          (((cfg1.win 6).blk t).view.emb (ix2 p q))
  rw [hemb, Sage.pre_apply]
  refine (Body.pay1_apply _ _ _ _ _ _ p q).trans ?_
  unfold Sage.preAt
  refine (congrArg₂ (· + ·) (congrArg₂ (· + ·) (Finset.sum_congr rfl fun k _ => ?_)
    (Finset.sum_congr rfl fun k _ => ?_)) ?_)
  · rw [blk1_0 V c t p k ⟨t.val * 5000 + p.val, hP⟩ rfl, blk1_3 V c t k q]
  · rw [blk1_1 V c t p k ⟨t.val * 5000 + p.val, hP⟩ rfl, blk1_2 V c t p 0 ⟨t.val * 5000 + p.val, hP⟩ rfl, blk1_4 V c t k q]
  · rw [blk1_5 V c t 0 q]

/-- An index of the array is in point t's block iff each coordinate is in the block's range on its axis. -/
theorem mem_blk1 (t : Fin cfg1.N) (i : S50000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v32).slice (win1_6.rect t)).set ↔ _
  rw [View.set_slice_whole, Rect.mem_set_unit]
  exact Iff.rfl

/-- The ten row blocks tile the array: row r lies in the block of point r / 5000. -/
theorem cover1 (i : S50000x64.Idx) :
    ∃ t : Fin cfg1.N, (cfg1.win 6).flush t = true ∧ i ∈ ((cfg1.win 6).blk t).view.set := by
  have hi0 : (i 0).val < 50000 := (i 0).isLt
  have hi1 : (i 1).val < 64 := (i 1).isLt
  have hN : cfg1.N = 10 := N_1
  let t : Fin cfg1.N := ⟨(i 0).val / 5000, by rw [hN]; omega⟩
  have ht : t.val = (i 0).val / 5000 := rfl
  obtain ⟨-, -, -, -, -, -, -, -, -, -, -, -, e0, e1⟩ := idx_facts1 t
  refine ⟨t, flush1_6 t, ?_⟩
  rw [mem_blk1]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 64 ≤ (i 1).val ∧ (i 1).val < win1_6.index t (1 : Fin 2) * 64 + 64; omega

/-- The output array after region 1: the layer of the arrays as the region finds them. -/
theorem final1 (c : Dev nD) :
    (dat1 (F := Ideal) V c).arrAt 6 cfg1.N
      = Sage.pre (M := 50000) (V c main_v20) (V c main_v30) (V c main_v8) (V c main_arg6) (V c main_arg7) (V c main_v31) :=
  (dat1 (F := Ideal) V c).arrAt_eq_of_cover 6 _ (fun t _ => flushed1_eq V c t) (cover1)

end Cert.KernelIdeal.Blocks

end
-- ==== Proof.SageHost.lean ====
/-
  The host side of the two-layer network, as functions of the arguments, at exact arithmetic.

  Both layers aggregate over the same edge list: the neighbour sum of a node is the sum, over the edges that end at
  it, of the feature row of the edge's source (a gather of 800000 rows by the wrapped source indices, then an
  accumulating scatter by the destination indices into zeros). The in-degree is the same scatter of ones; the scale
  of a node is 1 / max(degree, 1), kept as a [50000, 1] column; a bias is used as a [1, 64] row. The network is the
  clamped layer of the inputs followed by the plain layer of its result, both with the same scales.
-/
import proofs.«120543_j59854664237965_2_alg».proof.Proof.Gen.KernelIdeal
import proofs.«120543_j59854664237965_2_alg».proof.Proof.SageLayer
import Idealize.ShloMosaic.PureOps.Ideal

noncomputable section

namespace Cert.KernelIdeal.HostSide

open Idealize.ShloMosaic Cert.KernelIdeal Cert.KernelIdeal.Facts₀ Cert.KernelIdeal.Facts

/-- The source indices, a negative one wrapped by the number of nodes, as a column of index vectors. -/
def srcRows (a1 : IVec S800000 32) : IVec S800000x1 32 :=
  broadcastInDim S800000x1 ![0] bcast_S800000_S800000x1_0
    (select (cmpi .slt a1 (broadcastInDim S800000 ![] bcast_S_S800000 (constantI S_ 32 0#32)))
      (addi a1 (broadcastInDim S800000 ![] bcast_S_S800000 (constantI S_ 32 50000#32))) a1)

/-- The neighbour sums of the feature array h: rows gathered by source, accumulated by destination into zeros. -/
def agg (h : FVec Ideal S50000x64 .f32) (a1 a2 : IVec S800000 32) : FVec Ideal S50000x64 .f32 :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 a2)
    (Host.gather gather_S50000x64_S800000x1_S800000x64_1_0_n_n_0_1_164 h (srcRows a1))

/-- max(in-degree, 1): ones accumulated by destination into zeros, clamped below at 1. -/
def maxDeg (a2 : IVec S800000 32) : FVec Ideal S50000 .f32 :=
  maximumf
    (Host.scatterAdd scatter_S50000_S800000x1_S800000_n_0_0_1
      (broadcastInDim S50000 ![] bcast_S_S50000 (constant (F := Ideal) S_ .f32 0x00000000#32))
      (broadcastInDim S800000x1 ![0] bcast_S800000_S800000x1_0 a2)
      (broadcastInDim S800000 ![] bcast_S_S800000 (constant (F := Ideal) S_ .f32 0x3F800000#32)))
    (broadcastInDim S50000 ![] bcast_S_S50000 (constant (F := Ideal) S_ .f32 0x3F800000#32))

/-- The column of scales 1 / max(in-degree, 1). -/
def scale (a2 : IVec S800000 32) : FVec Ideal S50000x1 .f32 :=
  shapeCast S50000x1
    (Host.divf (broadcastInDim S50000 ![] bcast_S_S50000 (constant (F := Ideal) S_ .f32 0x3F800000#32)) (maxDeg a2))
    shapeCasts_S50000_S50000x1

/-- A bias as a row. -/
def row (b : FVec Ideal S64 .f32) : FVec Ideal S1x64 .f32 := shapeCast S1x64 b shapeCasts_S64_S1x64

/-- The first layer's result. -/
def layer1 (a0 : FVec Ideal S50000x64 .f32) (a1 a2 : IVec S800000 32) (a3 a4 : FVec Ideal S64x64 .f32)
    (a5 : FVec Ideal S64 .f32) : FVec Ideal S50000x64 .f32 :=
  Sage.hidden (M := 50000) a0 (agg a0 a1 a2) (scale a2) a3 a4 (row a5)

/-- The network's result. -/
def net (a0 : FVec Ideal S50000x64 .f32) (a1 a2 : IVec S800000 32) (a3 a4 : FVec Ideal S64x64 .f32)
    (a5 : FVec Ideal S64 .f32) (a6 a7 : FVec Ideal S64x64 .f32) (a8 : FVec Ideal S64 .f32) : FVec Ideal S50000x64 .f32 :=
  Sage.pre (M := 50000) (layer1 a0 a1 a2 a3 a4 a5) (agg (layer1 a0 a1 a2 a3 a4 a5) a1 a2) (scale a2) a6 a7 (row a8)

end Cert.KernelIdeal.HostSide

end
-- ==== Proof.KernelValue.lean ====
/-
  The kernel program's result as a function of its arguments, at exact arithmetic.

  Before the first region the host computes the neighbour sums of the inputs, the column of scales and the first
  bias as a row; the region leaves the clamped layer of them in its output array. Between the regions the host
  computes the neighbour sums of that array and the second bias as a row, the scales staying as they were; the second
  region leaves the plain layer. No argument is written on the way. So the result buffer ends at the two-layer
  network of the arguments.
-/
import proofs.«120543_j59854664237965_2_alg».proof.Proof.KernelRun
import proofs.«120543_j59854664237965_2_alg».proof.Proof.KernelBlocks
import proofs.«120543_j59854664237965_2_alg».proof.Proof.SageHost
import Idealize.ShloMosaic.Lib.StableHlo.Run

set_option maxRecDepth 16384

noncomputable section

namespace Cert.KernelIdeal.RunValue

open Idealize.ShloMosaic Idealize.ShloMosaic.TcCoe Idealize.SL.Sem Idealize.ShloMosaic.StableHlo
open Cert.KernelIdeal Cert.KernelIdeal.Gen Cert.KernelIdeal.HostSide

variable (m : (ℓ : Loc nD τ sig) → Buf (Elt Ideal) ℓ) (ρ : Dev nD → PrngReg) (c : Dev nD)

/-! ## The first region's entry contents: the host operations before it, over the launch memory -/

theorem V1_arg0 : V1 m ρ c main_arg0 = m ((c : Thread nD τ).loc main_arg0) := by
  show StableHlo.after hostOps0 (W0 m ρ c) (Proc.devRef .tc main_arg0) = _
  after_results <;> rfl
theorem V1_arg1 : V1 m ρ c main_arg1 = m ((c : Thread nD τ).loc main_arg1) := by
  show StableHlo.after hostOps0 (W0 m ρ c) (Proc.devRef .tc main_arg1) = _
  after_results <;> rfl
theorem V1_arg2 : V1 m ρ c main_arg2 = m ((c : Thread nD τ).loc main_arg2) := by
  show StableHlo.after hostOps0 (W0 m ρ c) (Proc.devRef .tc main_arg2) = _
  after_results <;> rfl
theorem V1_arg3 : V1 m ρ c main_arg3 = m ((c : Thread nD τ).loc main_arg3) := by
  show StableHlo.after hostOps0 (W0 m ρ c) (Proc.devRef .tc main_arg3) = _
  after_results <;> rfl
theorem V1_arg4 : V1 m ρ c main_arg4 = m ((c : Thread nD τ).loc main_arg4) := by
  show StableHlo.after hostOps0 (W0 m ρ c) (Proc.devRef .tc main_arg4) = _
  after_results <;> rfl
theorem V1_arg6 : V1 m ρ c main_arg6 = m ((c : Thread nD τ).loc main_arg6) := by
  show StableHlo.after hostOps0 (W0 m ρ c) (Proc.devRef .tc main_arg6) = _
  after_results <;> rfl
theorem V1_arg7 : V1 m ρ c main_arg7 = m ((c : Thread nD τ).loc main_arg7) := by
  show StableHlo.after hostOps0 (W0 m ρ c) (Proc.devRef .tc main_arg7) = _
  after_results <;> rfl
theorem V1_arg8 : V1 m ρ c main_arg8 = m ((c : Thread nD τ).loc main_arg8) := by
  show StableHlo.after hostOps0 (W0 m ρ c) (Proc.devRef .tc main_arg8) = _
  after_results <;> rfl

set_option maxHeartbeats 4000000 in
/-- The neighbour sums of the inputs. -/
theorem V1_v18 : V1 m ρ c main_v18 = agg (m ((c : Thread nD τ).loc main_arg0)) (m ((c : Thread nD τ).loc main_arg1)) (m ((c : Thread nD τ).loc main_arg2)) := by
  show StableHlo.after hostOps0 (W0 m ρ c) (Proc.devRef .tc main_v18) = _
  after_results <;> rfl
/-- The column of scales. -/
theorem V1_v8 : V1 m ρ c main_v8 = scale (m ((c : Thread nD τ).loc main_arg2)) := by
  show StableHlo.after hostOps0 (W0 m ρ c) (Proc.devRef .tc main_v8) = _
  after_results <;> rfl
/-- The first bias as a row. -/
theorem V1_v19 : V1 m ρ c main_v19 = row (m ((c : Thread nD τ).loc main_arg5)) := by
  show StableHlo.after hostOps0 (W0 m ρ c) (Proc.devRef .tc main_v19) = _
  after_results <;> rfl

/-! ## The first region's exit contents -/

/-- Its output array: the first layer of the arguments. -/
theorem W2_v20 : W2 m ρ c (Proc.devRef .tc main_v20) = layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W2_arr m ρ c 6).trans ?_
  refine (Blocks.final0 (V1 m ρ) c).trans ?_
  rw [V1_arg0, V1_v18, V1_v8, V1_arg3, V1_arg4, V1_v19]
  rfl
/-- The column of scales is an input window of the region: unchanged. -/
theorem W2_v8 : W2 m ρ c (Proc.devRef .tc main_v8) = scale (m ((c : Thread nD τ).loc main_arg2)) :=
  ((W2_arr m ρ c 2).trans (((dat0 (V1 m ρ) c).arrAt_in 2 rfl _).trans (A_eq0 (V1 m ρ) c 2))).trans (V1_v8 m ρ c)
theorem W2_arg1 : W2 m ρ c (Proc.devRef .tc main_arg1) = m ((c : Thread nD τ).loc main_arg1) :=
  (W2_of_ne m ρ c main_arg1 (by decide)).trans (V1_arg1 m ρ c)
theorem W2_arg2 : W2 m ρ c (Proc.devRef .tc main_arg2) = m ((c : Thread nD τ).loc main_arg2) :=
  (W2_of_ne m ρ c main_arg2 (by decide)).trans (V1_arg2 m ρ c)
theorem W2_arg6 : W2 m ρ c (Proc.devRef .tc main_arg6) = m ((c : Thread nD τ).loc main_arg6) :=
  (W2_of_ne m ρ c main_arg6 (by decide)).trans (V1_arg6 m ρ c)
theorem W2_arg7 : W2 m ρ c (Proc.devRef .tc main_arg7) = m ((c : Thread nD τ).loc main_arg7) :=
  (W2_of_ne m ρ c main_arg7 (by decide)).trans (V1_arg7 m ρ c)
theorem W2_arg8 : W2 m ρ c (Proc.devRef .tc main_arg8) = m ((c : Thread nD τ).loc main_arg8) :=
  (W2_of_ne m ρ c main_arg8 (by decide)).trans (V1_arg8 m ρ c)

/-! ## The second region's entry contents: the host operations between the regions -/

theorem V3_v20 : V3 m ρ c main_v20 = layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps1 (W2 m ρ c) (Proc.devRef .tc main_v20) = _
  after_results
  exact W2_v20 m ρ c
theorem V3_v8 : V3 m ρ c main_v8 = scale (m ((c : Thread nD τ).loc main_arg2)) := by
  show StableHlo.after hostOps1 (W2 m ρ c) (Proc.devRef .tc main_v8) = _
  after_results
  exact W2_v8 m ρ c
theorem V3_arg6 : V3 m ρ c main_arg6 = m ((c : Thread nD τ).loc main_arg6) := by
  show StableHlo.after hostOps1 (W2 m ρ c) (Proc.devRef .tc main_arg6) = _
  after_results
  exact W2_arg6 m ρ c
theorem V3_arg7 : V3 m ρ c main_arg7 = m ((c : Thread nD τ).loc main_arg7) := by
  show StableHlo.after hostOps1 (W2 m ρ c) (Proc.devRef .tc main_arg7) = _
  after_results
  exact W2_arg7 m ρ c
/-- The neighbour sums of the first layer's result. -/
theorem V3_v30 : V3 m ρ c main_v30
    = agg (layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) := by
  show StableHlo.after hostOps1 (W2 m ρ c) (Proc.devRef .tc main_v30) = _
  after_results
  rw [W2_v20 m ρ c, W2_arg1 m ρ c, W2_arg2 m ρ c]
  rfl
/-- The second bias as a row. -/
theorem V3_v31 : V3 m ρ c main_v31 = row (m ((c : Thread nD τ).loc main_arg8)) := by
  show StableHlo.after hostOps1 (W2 m ρ c) (Proc.devRef .tc main_v31) = _
  after_results
  rw [W2_arg8 m ρ c]
  rfl

/-! ## The result -/

/-- The second region's output array, the program's result: the network of the arguments. -/
theorem W4_v32 : W4 m ρ c (Proc.devRef .tc main_v32)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have e := Blocks.final1 (V3 m ρ) c
  rw [V3_v20 m ρ c, V3_v30 m ρ c, V3_v8 m ρ c, V3_arg6 m ρ c, V3_arg7 m ρ c, V3_v31 m ρ c] at e
  exact (W4_arr m ρ c 6).trans e

/-- The program's run: the result buffer ends at the network of the arguments, the arguments as launched. -/
theorem run : θ_run defs (onTc (τ := τ) (main (F := Ideal))) ⟨m, fun _ => 0, ρ⟩ (fun r => ∀ c : Dev nD,
      r.2.mem ((c.tc : Thread nD τ).loc main_v32)
        = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (W4_v32 m ρ c), (h c).2⟩) (run_result m ρ)

end Cert.KernelIdeal.RunValue

end
-- ==== Proof.LibMatIdx.lean ====
/-
  A host product of two matrices at exact arithmetic, read at an entry: the sum over the contracted axis of the
  products of the left factor's row entries with the right factor's column entries. Stated for any contraction
  record between two-axis shapes whose operand indices are "row of the result, contracted position" and "contracted
  position, column of the result" — facts that hold by computation for the records a product of two matrices prints.
-/
import Idealize.ShloMosaic.Lib.ValueIdx
import Idealize.ShloMosaic.PureOps.Ideal.Laws

noncomputable section

namespace LibMatIdx

open Idealize.ShloMosaic Idealize.ShloMosaic.ValueIdx

theorem dot2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) D prec l r j = ∑ k : Fin K, l (ix2 (n0 := M) (n1 := K) (j 0) k) * r (ix2 (n0 := K) (n1 := N) k (j 1)) := by
  show FloatOps.dotGeneral (F := Ideal) D prec .single l r j = _
  rw [Ideal.dotGeneral_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatIdx

end
-- ==== Proof.LibReciprocalScale.lean ====
/-
  A product with a reciprocal against a quotient, on the extended reals.

  At exact arithmetic a quotient a / d by d ≠ 0 is a · d⁻¹, and 1 / d is d⁻¹, so a · (1 / d) = a / d for EVERY extended
  real a, the infinities included: no finiteness is needed, only d ≠ 0. A maximum with the value of the f32 word
  0x3F800000 (the real 1) is at least 1, hence never 0: a degree clamped below at 1 can always be divided by.
-/
import Idealize.ShloMosaic.PureOps.Ideal.Laws

noncomputable section

namespace LibReciprocalScale

open Idealize.ShloMosaic

/-- The f32 word 0x3F800000 denotes the real 1. -/
theorem ofBits_one_f32 : Ideal.ofBits .f32 0x3F800000#32 = 1 := by
  simp [Ideal.ofBits, Ideal.ieee, -EReal.coe_mul]; norm_num

/-- A maximum with the word 0x3F800000's value is not 0. -/
theorem max_one_ne_zero (x : EReal) : max x (Ideal.ofBits .f32 0x3F800000#32) ≠ 0 := by
  rw [ofBits_one_f32]
  exact ne_of_gt (lt_of_lt_of_le zero_lt_one (le_max_right x 1))

/-- Off zero, the product with the reciprocal is the quotient, on every extended real. -/
theorem mul_one_div (a d : EReal) (hd : d ≠ 0) : a * Ideal.div 1 d = Ideal.div a d := by
  unfold Ideal.div
  rw [if_neg hd, if_neg hd, one_mul]

end LibReciprocalScale

end
-- ==== Proof.SageRef.lean ====
/-
  The reference's spelling of one layer, read at an entry at exact arithmetic.

  The reference divides the neighbour sums by max(degree, 1) — the vector d below, broadcast along the rows — before
  the product with the neighbour weights, and adds the bias broadcast from a vector. At (p, q) that is
      Σ_k X[p,k]·Ws[k,q] + Σ_k (A[p,k] / d[p])·Wn[k,q] + b[q].
  Since d[p] ≠ 0, the quotient A[p,k] / d[p] is the product A[p,k] · (1 / d[p]), so this is the layer's pre-activation
  with the column of scales 1 / d and the bias as a row.
-/
import proofs.«120543_j59854664237965_2_alg».proof.Proof.SageLayer
import proofs.«120543_j59854664237965_2_alg».proof.Proof.LibMatIdx
import proofs.«120543_j59854664237965_2_alg».proof.Proof.LibKeepdims
import proofs.«120543_j59854664237965_2_alg».proof.Proof.LibRowOps
import proofs.«120543_j59854664237965_2_alg».proof.Proof.LibReciprocalScale
import Idealize.ShloMosaic.Lib.ValueIdx
import Idealize.ShloMosaic.Lib.Pipeline.Value
import Idealize.ShloMosaic.PureOps.Ideal.Laws

noncomputable section

namespace Sage

open Idealize.ShloMosaic Idealize.ShloMosaic.ValueIdx

abbrev SN : Shape := ⟨2, ![50000, 64]⟩
abbrev SW : Shape := ⟨2, ![64, 64]⟩
abbrev SC : Shape := ⟨2, ![50000, 1]⟩
abbrev SB : Shape := ⟨2, ![1, 64]⟩
abbrev S1N : Shape := ⟨1, ![50000]⟩
abbrev S1B : Shape := ⟨1, ![64]⟩
abbrev S0 : Shape := ⟨0, ![]⟩

/-- The reference's pre-activation at (p, q) is the layer's, with scales 1 / d and the bias as a row. -/
theorem ref_pre_apply (D : DotDims SN SW SN) (hr : D.contr.rank = 1) (hs : D.contr.size ⟨0, by omega⟩ = 64)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (h16 : S1N.BroadcastsInDim SC ![0]) (h17 : SC.BroadcastsInDim SN ![0, 1])
    (h22 : S1B.BroadcastsInDim SB ![1]) (h23 : SB.BroadcastsInDim SN ![0, 1])
    (hb1 : S0.BroadcastsInDim S1N ![]) (hc : S1N.ShapeCasts SC) (hcb : S1B.ShapeCasts SB)
    (X A : SN.Idx → EReal) (d : S1N.Idx → EReal) (hd : ∀ r, d r ≠ 0) (Ws Wn : SW.Idx → EReal) (b : S1B.Idx → EReal)
    (p : Fin 50000) (q : Fin 64) :
    addf (F := Ideal) (φ := .f32)
        (addf (F := Ideal) (φ := .f32) (Host.dotGeneral (F := Ideal) (φ₁ := .f32) (φ₂ := .f32) D none X Ws)
          (Host.dotGeneral (F := Ideal) (φ₁ := .f32) (φ₂ := .f32) D none
            (Host.divf (F := Ideal) (φ := .f32) A (broadcastInDim SN ![0, 1] h17 (broadcastInDim SC ![0] h16 d))) Wn))
        (broadcastInDim SN ![0, 1] h23 (broadcastInDim SB ![1] h22 b)) (ix2 p q)
      = preAt (M := 50000) X A
          (shapeCast SC (Host.divf (F := Ideal) (φ := .f32)
            (broadcastInDim S1N ![] hb1 (constant (F := Ideal) S0 .f32 0x3F800000#32)) d) hc)
          Ws Wn (shapeCast SB b hcb) p q := by
  simp only [addf_apply]
  unfold preAt
  refine congrArg₂ (· + ·) (congrArg₂ (· + ·) ?_ ?_) ?_
  · exact LibMatIdx.dot2_apply (M := 50000) (K := 64) (N := 64) D hr hs hl0 hl1 hr0 hr1 none X Ws (ix2 p q)
  · refine (LibMatIdx.dot2_apply (M := 50000) (K := 64) (N := 64) D hr hs hl0 hl1 hr0 hr1 none _ Wn (ix2 p q)).trans
      (Finset.sum_congr rfl fun k _ => ?_)
    refine congrArg (· * Wn (ix2 k q)) ?_
    show Ideal.div (A (ix2 p k)) (broadcastInDim SN ![0, 1] h17 (broadcastInDim SC ![0] h16 d) (ix2 p k)) = _
    have hBB : broadcastInDim SN ![0, 1] h17 (broadcastInDim SC ![0] h16 d) (ix2 p k) = d (ix1 p) := by
      rw [broadcastInDim_apply _ h17 _ (ix2 p k) (ix2 p (0 : Fin 1)) (fun a => match a with
          | ⟨0, _⟩ => by show p.val = if (50000 : ℕ) = 1 then 0 else p.val; rw [if_neg (by decide)]
          | ⟨1, _⟩ => by show 0 = if (1 : ℕ) = 1 then 0 else k.val; rw [if_pos rfl]),
        broadcastInDim_apply _ h16 d (ix2 p (0 : Fin 1)) (ix1 p) (fun a => match a with
          | ⟨0, _⟩ => by show p.val = if (50000 : ℕ) = 1 then 0 else p.val; rw [if_neg (by decide)])]
    have hS : shapeCast SC (Host.divf (F := Ideal) (φ := .f32)
          (broadcastInDim S1N ![] hb1 (constant (F := Ideal) S0 .f32 0x3F800000#32)) d) hc (ix2 p (0 : Fin 1))
        = Ideal.div 1 (d (ix1 p)) := by
      rw [LibKeepdims.shapeCast_col_apply]
      show Ideal.div (broadcastInDim S1N ![] hb1 (constant (F := Ideal) S0 .f32 0x3F800000#32) (ix1 p)) (d (ix1 p)) = _
      rw [broadcastInDim_apply _ hb1 _ (ix1 p) ix0 (fun a => a.elim0)]
      show Ideal.div (Ideal.ofBits .f32 0x3F800000#32) _ = _
      rw [LibReciprocalScale.ofBits_one_f32]
    rw [hBB, hS, LibReciprocalScale.mul_one_div _ _ (hd _)]
  · rw [broadcastInDim_apply _ h23 _ (ix2 p q) (ix2 (0 : Fin 1) q) (fun a => match a with
        | ⟨0, _⟩ => by show 0 = if (1 : ℕ) = 1 then 0 else p.val; rw [if_pos rfl]
        | ⟨1, _⟩ => by show q.val = if (64 : ℕ) = 1 then 0 else q.val; rw [if_neg (by decide)]),
      broadcastInDim_apply _ h22 b (ix2 (0 : Fin 1) q) (ix1 q) (fun a => match a with
        | ⟨0, _⟩ => by show q.val = if (64 : ℕ) = 1 then 0 else q.val; rw [if_neg (by decide)]),
      LibRowOps.shapeCast_row_apply]

end Sage

end
-- ==== Proof.RefValue.lean ====
/-
  The reference program's result is the two-layer network of its arguments.

  The reference computes, per layer, the neighbour sums and max(degree, 1) by the same gathers and scatters as the
  kernel program's host side, divides the sums by the clamped degree along the rows, and adds the two matrix
  products and the bias; the first layer is clamped below at 0. Entry by entry that is the layer with the column of
  scales 1 / max(degree, 1): a quotient by a nonzero number is the product with its reciprocal.
-/
import proofs.«120543_j59854664237965_2_alg».proof.Proof.Gen.ReferenceIdeal.Run
import proofs.«120543_j59854664237965_2_alg».proof.Proof.Gen.ReferenceIdeal.Read
import proofs.«120543_j59854664237965_2_alg».proof.Proof.SageRef
import proofs.«120543_j59854664237965_2_alg».proof.Proof.SageHost

set_option maxRecDepth 16384

noncomputable section

namespace Cert.ReferenceIdeal.RefValue

open Idealize.ShloMosaic Idealize.ShloMosaic.ValueIdx Idealize.ShloMosaic.TcCoe Idealize.SL.Sem
open Cert.ReferenceIdeal Cert.ReferenceIdeal.Facts₀ Cert.ReferenceIdeal.Facts Cert.ReferenceIdeal.Read
open Cert.KernelIdeal.HostSide

variable (a0 : FVec Ideal S50000x64 .f32) (a1 a2 : IVec S800000 32) (a3 a4 : FVec Ideal S64x64 .f32)
  (a5 : FVec Ideal S64 .f32) (a6 a7 : FVec Ideal S64x64 .f32) (a8 : FVec Ideal S64 .f32)

/-- The reference's neighbour sums of the inputs are the host side's. -/
theorem v9_eq : val_main_v9 (F := Ideal) a0 a1 a2 = agg a0 a1 a2 := rfl

/-- The reference's clamped degree, in both layers, is the host side's. -/
theorem v15_eq : val_main_v15 (F := Ideal) a2 = maxDeg a2 := rfl
theorem v41_eq : val_main_v41 (F := Ideal) a2 = maxDeg a2 := rfl

/-- The clamped degree is nowhere 0. -/
theorem maxDeg_ne_zero (r : (⟨1, ![50000]⟩ : Shape).Idx) : maxDeg a2 r ≠ 0 := by
  unfold maxDeg
  rw [maximumf_apply, broadcastInDim_apply _ _ _ r ix0 (fun a => a.elim0)]
  exact LibReciprocalScale.max_one_ne_zero _

/-- The first layer. -/
theorem v25_eq : val_main_v25 (F := Ideal) a0 a1 a2 a3 a4 a5 = layer1 a0 a1 a2 a3 a4 a5 := by
  funext i
  obtain ⟨p, q, rfl⟩ : ∃ (p : Fin 50000) (q : Fin 64), i = ix2 p q := ⟨i 0, i 1, eq_ix2 i⟩
  unfold layer1
  rw [Sage.hidden_apply, val_main_v25_apply]
  refine congrArg₂ max ?_ ?_
  · unfold val_main_v24 val_main_v21 val_main_v19 val_main_v20 val_main_v18 val_main_v17 val_main_v16 val_main_v23 val_main_v22
    rw [v9_eq, v15_eq]
    exact Sage.ref_pre_apply dot_S50000x64_S64x64_S50000x64_1_0_0_1_n_n rfl rfl lhs_main_v19_0 lhs_main_v19_1 rhs_main_v19_0 rhs_main_v19_1
      bcast_S50000_S50000x1_0 bcast_S50000x1_S50000x64_0_1 bcast_S64_S1x64_1 bcast_S1x64_S50000x64_0_1
      Cert.KernelIdeal.Facts₀.bcast_S_S50000 Cert.KernelIdeal.Facts₀.shapeCasts_S50000_S50000x1 Cert.KernelIdeal.Facts₀.shapeCasts_S64_S1x64
      a0 (agg a0 a1 a2) (maxDeg a2) (maxDeg_ne_zero a2) a3 a4 a5 p q
  · rw [val_main_call0_v0_apply, val_main_call0_cst_apply]
    exact Ideal.ofBits_zero_f32

/-- The reference's neighbour sums of the first layer's result are the host side's. -/
theorem v35_eq : val_main_v35 (F := Ideal) a0 a1 a2 a3 a4 a5 = agg (val_main_v25 (F := Ideal) a0 a1 a2 a3 a4 a5) a1 a2 := rfl

/-- The result. -/
theorem v50_eq : val_main_v50 (F := Ideal) a0 a1 a2 a3 a4 a5 a6 a7 a8 = net a0 a1 a2 a3 a4 a5 a6 a7 a8 := by
  funext i
  obtain ⟨p, q, rfl⟩ : ∃ (p : Fin 50000) (q : Fin 64), i = ix2 p q := ⟨i 0, i 1, eq_ix2 i⟩
  unfold net
  rw [Sage.pre_apply]
  unfold val_main_v50 val_main_v47 val_main_v45 val_main_v46 val_main_v44 val_main_v43 val_main_v42 val_main_v49 val_main_v48
  rw [v35_eq, v41_eq, v25_eq]
  exact Sage.ref_pre_apply dot_S50000x64_S64x64_S50000x64_1_0_0_1_n_n rfl rfl lhs_main_v19_0 lhs_main_v19_1 rhs_main_v19_0 rhs_main_v19_1
      bcast_S50000_S50000x1_0 bcast_S50000x1_S50000x64_0_1 bcast_S64_S1x64_1 bcast_S1x64_S50000x64_0_1
      Cert.KernelIdeal.Facts₀.bcast_S_S50000 Cert.KernelIdeal.Facts₀.shapeCasts_S50000_S50000x1 Cert.KernelIdeal.Facts₀.shapeCasts_S64_S1x64
      (layer1 a0 a1 a2 a3 a4 a5) (agg (layer1 a0 a1 a2 a3 a4 a5) a1 a2) (maxDeg a2) (maxDeg_ne_zero a2) a6 a7 a8 p q

/-- The reference's run, its result named as the network of the arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v50)
        = net (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans ((val_main_v50_eq m c).trans (v50_eq _ _ _ _ _ _ _ _ _)), (h c).2⟩)
    (Cert.ReferenceIdeal.Value.run (F := Ideal) m ρ)

end Cert.ReferenceIdeal.RefValue

end
-- ==== Proof.lean ====
/-
  A two-layer mean-aggregation graph network (clamped first layer), computed by two tiled kernels with the gathers
  and scatters on the host, against its plain array formulation: equal at exact arithmetic.

  Both programs compute, for node features x, edges (src, dst), and per layer weights Ws, Wn and bias b,
      layer(h) = h·Ws + (agg(h) ⊘ max(deg, 1))·Wn + b,      out = layer₂(max(layer₁(x), 0)),
  where agg(h) sums, over the edges ending at a node, the feature rows of their sources, and deg counts those edges.
  The reference divides the neighbour sums by max(deg, 1) along the rows; the kernels multiply them, block by block of
  5000 rows, by the column 1 / max(deg, 1) the host computed once. Since max(deg, 1) is never 0, quotient and product
  with the reciprocal agree on every extended real, so the two programs are one function of the arguments. The
  neighbour sums and the degree are the same host operations on both sides and are never opened.

  The kernel program's run names its result as what the second region's write-backs leave, which is the layer of the
  arrays that region finds, which the host operations and the first region's result determine; the reference's run
  names its result as its operations' composed term, read entry by entry.
-/
import proofs.«120543_j59854664237965_2_alg».proof.Defs
import proofs.«120543_j59854664237965_2_alg».proof.Proof.Gen.Kernel
import proofs.«120543_j59854664237965_2_alg».proof.Proof.Gen.Kernel.Frame
import proofs.«120543_j59854664237965_2_alg».proof.Proof.Gen.KernelIdeal
import proofs.«120543_j59854664237965_2_alg».proof.Proof.Gen.KernelIdeal.Frame
import proofs.«120543_j59854664237965_2_alg».proof.Proof.Gen.ReferenceIdeal
import proofs.«120543_j59854664237965_2_alg».proof.Proof.Gen.ReferenceIdeal.Run
import proofs.«120543_j59854664237965_2_alg».proof.Proof.Gen.Pre_finite_inputs
import proofs.«120543_j59854664237965_2_alg».proof.Proof.KernelValue
import proofs.«120543_j59854664237965_2_alg».proof.Proof.RefValue

noncomputable section

namespace Cert.Proof

open Idealize.ShloMosaic Idealize.ShloMosaic.TcCoe Idealize.SL.Sem

/-- The kernel program runs and keeps its arguments, at the word level. -/
theorem frame_kernel : Cert.frame_Kernel := fun m ρ _ => Cert.Kernel.Gen.frame m ρ

/-- The same at exact arithmetic. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten when the kernel program was read at exact arithmetic. -/
theorem preserves : Cert.preserves_Kernel_KernelIdeal := trivial

/-- From memories agreeing on the arguments both programs end with the network of the arguments. -/
theorem algebraic : Cert.algebraic_KernelIdeal_ReferenceIdeal := by
  intro m ρ m' ρ' _ hagree
  refine ⟨fun c => Cert.KernelIdeal.HostSide.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.RunValue.run m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5, e6, e7, e8⟩ := hagree c
  rw [e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
